-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S1024x2048 : Shape := ⟨2, ![1024, 2048]⟩
abbrev S2048x1024 : Shape := ⟨2, ![2048, 1024]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4x4096x2048 .f32) (main_arg1 : FVec F S1024x2048 .f32) (main_arg2 : FVec F S2048x1024 .f32) (main_arg3 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4x4096x2048 : Shape := ⟨3, ![4, 4096, 2048]⟩
abbrev S1024x2048 : Shape := ⟨2, ![1024, 2048]⟩
abbrev S2048x1024 : Shape := ⟨2, ![2048, 1024]⟩
abbrev S2048 : Shape := ⟨1, ![2048]⟩
abbrev S1x2048 : Shape := ⟨2, ![1, 2048]⟩
abbrev S1x512x2048 : Shape := ⟨3, ![1, 512, 2048]⟩
abbrev S512x2048 : Shape := ⟨2, ![512, 2048]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S1024x2048, .f32⟩
  | .hbm, ⟨2, _⟩ => ⟨S2048x1024, .f32⟩
  | .hbm, ⟨3, _⟩ => ⟨S2048, .f32⟩
  | .hbm, ⟨4, _⟩ => ⟨S1024x2048, .bf16⟩
  | .hbm, ⟨5, _⟩ => ⟨S2048x1024, .bf16⟩
  | .hbm, ⟨6, _⟩ => ⟨S1x2048, .f32⟩
  | .hbm, ⟨7, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1024x2048, .bf16⟩
  | .local _ .vmem, ⟨3, _⟩ => ⟨S2048x1024, .bf16⟩
  | .local _ .vmem, ⟨4, _⟩ => ⟨S1x2048, .f32⟩
  | .local _ .vmem, ⟨5, _⟩ => ⟨S1x512x2048, .f32⟩
  | .local _ .vmem, ⟨6, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  shapeCasts_S2048_S1x2048 : S2048.ShapeCasts S1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S512x2048_S1x512x2048 : S512x2048.ShapeCasts S1x512x2048
  dot_S512x2048_S1024x2048_S512x1024_1_1_0_0_n_n_wf : DotDims.WF S512x2048 S1024x2048 S512x1024 [1] [1] [0] [0] [] []
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S4x4096x2048.size a
  hwx0_4 : ∀ i : grid0.Coords, EltTy.bits .f32 = 32 ∨ (Rect.block (s := S4x4096x2048) S1x512x2048.size (cc0_transform_4 i) (hinb0_4 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S1024x2048 : Shape := ⟨2, ![1024, 2048]⟩
abbrev S2048x1024 : Shape := ⟨2, ![2048, 1024]⟩
abbrev S2048 : Shape := ⟨1, ![2048]⟩
abbrev S4x4096x1024 : Shape := ⟨3, ![4, 4096, 1024]⟩
abbrev S1x1x2048 : Shape := ⟨3, ![1, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1024x2048, .f32⟩
  | .hbm, ⟨2, _⟩ => ⟨S2048x1024, .f32⟩
  | .hbm, ⟨3, _⟩ => ⟨S2048, .f32⟩
  | .hbm, ⟨4, _⟩ => ⟨S4x4096x1024, .f32⟩
  | .hbm, ⟨5, _⟩ => ⟨S4x4096x1024, .f32⟩
  | .hbm, ⟨6, _⟩ => ⟨S4x4096x2048, .f32⟩
  | .hbm, ⟨7, _⟩ => ⟨S1x1x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S1024x2048_S4x4096x1024_2_1_01_0_n_n_wf : DotDims.WF S4x4096x2048 S1024x2048 S4x4096x1024 [2] [1] [0, 1] [0] [] []
  dot_S4x4096x1024_S2048x1024_S4x4096x2048_2_1_01_0_n_n_wf : DotDims.WF S4x4096x1024 S2048x1024 S4x4096x2048 [2] [1] [0, 1] [0] [] []

variable [Facts₀]

def dot_S4x4096x2048_S1024x2048_S4x4096x1024_2_1_01_0_n_n : DotDims S4x4096x2048 S1024x2048 S4x4096x1024 where
  lhsContracting := [2]
  rhsContracting := [1]
  lhsNonContracting := [0, 1]
  rhsNonContracting := [0]
  lhsBatch := []
  rhsBatch := []
  wf := dot_S4x4096x2048_S1024x2048_S4x4096x1024_2_1_01_0_n_n_wf
def dot_S4x4096x1024_S2048x1024_S4x4096x2048_2_1_01_0_n_n : DotDims S4x4096x1024 S2048x1024 S4x4096x2048 where
  lhsContracting := [2]
  rhsContracting := [1]
  lhsNonContracting := [0, 1]
  rhsNonContracting := [0]
  lhsBatch := []
  rhsBatch := []
  wf := dot_S4x4096x1024_S2048x1024_S4x4096x2048_2_1_01_0_n_n_wf

class Facts : Prop extends Facts₀ where

variable [Facts]
-- ==== Proof.Spec.lean ====
/-
  The function both programs compute, written once over the argument arrays at the ideal values.

  With x of shape [4, 4096, 2048], B of shape [1024, 2048], C of shape [2048, 1024] and D of shape [2048]:
    state(b, s, n)  = tanh (Σ_k x(b, s, k) · B(n, k))              (k over the 2048 model coordinates)
    result(b, s, d) = (Σ_n state(b, s, n) · C(d, n)) + D(d) · x(b, s, d)      (n over the 1024 state coordinates)
  Both contractions run over the LAST axis of both operands, so neither matrix is transposed in the text below.
-/
import Idealize.ShloMosaic.PureOps.Ideal
import Idealize.ShloMosaic.Lib.ValueIdx

noncomputable section

namespace Cert.Spec

open Idealize.ShloMosaic Idealize.ShloMosaic.ValueIdx

/-- The hidden state at (b, s, n): the hyperbolic tangent of row (b, s) of x against row n of B. -/
def state (x : FVec Ideal ⟨3, ![4, 4096, 2048]⟩ .f32) (B : FVec Ideal ⟨2, ![1024, 2048]⟩ .f32)
    (b : Fin 4) (s : Fin 4096) (n : Fin 1024) : EReal :=
  Ideal.tanh (∑ k : Fin 2048, x (ix3 b s k) * B (ix2 n k))

/-- The result at (b, s, d): the state of row (b, s) against row d of C, plus the skip term D(d) · x(b, s, d). -/
def resultAt (x : FVec Ideal ⟨3, ![4, 4096, 2048]⟩ .f32) (B : FVec Ideal ⟨2, ![1024, 2048]⟩ .f32)
    (C : FVec Ideal ⟨2, ![2048, 1024]⟩ .f32) (D : FVec Ideal ⟨1, ![2048]⟩ .f32)
    (b : Fin 4) (s : Fin 4096) (d : Fin 2048) : EReal :=
  (∑ n : Fin 1024, state x B b s n * C (ix2 d n)) + D (ix1 d) * x (ix3 b s d)

/-- The whole result array. -/
def result (x : FVec Ideal ⟨3, ![4, 4096, 2048]⟩ .f32) (B : FVec Ideal ⟨2, ![1024, 2048]⟩ .f32)
    (C : FVec Ideal ⟨2, ![2048, 1024]⟩ .f32) (D : FVec Ideal ⟨1, ![2048]⟩ .f32) : FVec Ideal ⟨3, ![4, 4096, 2048]⟩ .f32 :=
  fun i => resultAt x B C D (i 0) (i 1) (i 2)

theorem result_ix3 (x : FVec Ideal ⟨3, ![4, 4096, 2048]⟩ .f32) (B : FVec Ideal ⟨2, ![1024, 2048]⟩ .f32)
    (C : FVec Ideal ⟨2, ![2048, 1024]⟩ .f32) (D : FVec Ideal ⟨1, ![2048]⟩ .f32) (b : Fin 4) (s : Fin 4096) (d : Fin 2048) :
    result x B C D (ix3 b s d) = resultAt x B C D b s d := rfl

end Cert.Spec

end
-- ==== Proof.Reference.lean ====
/-
  The reference's result, read one operation at a time, is the function of Spec.lean.

  The reference computes Σ_k x(b, s, k) · B(n, k) as a contraction of axis 2 of x with axis 1 of B, applies tanh, contracts
  axis 2 of the state with axis 1 of C, and adds D (stretched over the batch and sequence axes) times x.  Each step reads its
  operands at the indices the specification names, so the two agree entry by entry with no algebra at all.
-/
import proofs.«160884_j50929722196038_2_alg».proof.Proof.Gen.ReferenceIdeal.Read
import proofs.«160884_j50929722196038_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The last stage of the reference is the specified result of its four arguments. -/
theorem reference_is_result (x : FVec Ideal S4x4096x2048 .f32) (B : FVec Ideal S1024x2048 .f32) (C : FVec Ideal S2048x1024 .f32)
    (D : FVec Ideal S2048 .f32) : val_main_v6 (F := Ideal) x B C D = Cert.Spec.result x B C D := by
  funext i
  obtain ⟨b, s, d, rfl⟩ : ∃ (b : Fin 4) (s : Fin 4096) (d : Fin 2048), i = ix3 b s d := ⟨i 0, i 1, i 2, eq_ix3 i⟩
  rw [Cert.Spec.result_ix3]
  unfold Cert.Spec.resultAt
  rw [val_main_v6_apply, val_main_v5_apply, val_main_v4_apply, val_main_v3_apply, val_main_v2_apply]
  refine congrArg₂ (· + ·) (Finset.sum_congr rfl fun n _ => ?_) (congrArg₂ (· * ·) (congrArg D ?_) rfl)
  · rw [val_main_v1_apply, val_main_v0_apply]
    unfold Cert.Spec.state
    refine congrArg₂ (· * ·) (congrArg Ideal.tanh (Finset.sum_congr rfl fun k _ =>
      congrArg₂ (· * ·) (congrArg x ?_) (congrArg B ?_))) (congrArg C ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

end Cert.ReferenceIdeal.RefValue

end
-- ==== Proof.Body.lean ====
/-
  One block of the kernel's work, read at an index, at the ideal values.

  The body holds a block x0 of 512 rows of x (shape [1, 512, 2048]), all of B (as [1024, 2048]), all of C (as [2048, 1024])
  and D as one row ([1, 2048]).  Changes of float format are the identity on the extended reals, a product into a zero
  accumulator is the plain sum, and casts that add or drop the leading unit axis only rename the index.  So the value stored
  at (0, r, d) is
      (Σ_n tanh (Σ_k x0(0, r, k) · B(n, k)) · C(d, n)) + D(0, d) · x0(0, r, d).
-/
import proofs.«160884_j50929722196038_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## Which operand entries an output entry of each product reads

Both products contract axis 1 of the left operand with axis 1 of the right one: output entry (r, n) reads the left operand
along row r and the right operand along row n. -/

theorem pB_lhs_row (i : S512x1024.Idx) (q : dot_S512x2048_S1024x2048_S512x1024_1_1_0_0_n_n.contr.Idx) : (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem pB_lhs_contr (i : S512x1024.Idx) (q : dot_S512x2048_S1024x2048_S512x1024_1_1_0_0_n_n.contr.Idx) : (dot_S512x2048_S1024x2048_S512x1024_1_1_0_0_n_n.lhsIdx i q 1).val = (q ⟨0, by decide⟩).val :=
  dot_S512x2048_S1024x2048_S512x1024_1_1_0_0_n_n.lhsIdx_val_of_single rfl i q
theorem pB_rhs_row (i : S512x1024.Idx) (q : dot_S512x2048_S1024x2048_S512x1024_1_1_0_0_n_n.contr.Idx) : (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem pB_rhs_contr (i : S512x1024.Idx) (q : dot_S512x2048_S1024x2048_S512x1024_1_1_0_0_n_n.contr.Idx) : (dot_S512x2048_S1024x2048_S512x1024_1_1_0_0_n_n.rhsIdx i q 1).val = (q ⟨0, by decide⟩).val :=
  dot_S512x2048_S1024x2048_S512x1024_1_1_0_0_n_n.rhsIdx_val_of_single rfl i q

theorem pC_lhs_row (i : S512x2048.Idx) (q : dot_S512x1024_S2048x1024_S512x2048_1_1_0_0_n_n.contr.Idx) : (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem pC_lhs_contr (i : S512x2048.Idx) (q : dot_S512x1024_S2048x1024_S512x2048_1_1_0_0_n_n.contr.Idx) : (dot_S512x1024_S2048x1024_S512x2048_1_1_0_0_n_n.lhsIdx i q 1).val = (q ⟨0, by decide⟩).val :=
  dot_S512x1024_S2048x1024_S512x2048_1_1_0_0_n_n.lhsIdx_val_of_single rfl i q
theorem pC_rhs_row (i : S512x2048.Idx) (q : dot_S512x1024_S2048x1024_S512x2048_1_1_0_0_n_n.contr.Idx) : (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem pC_rhs_contr (i : S512x2048.Idx) (q : dot_S512x1024_S2048x1024_S512x2048_1_1_0_0_n_n.contr.Idx) : (dot_S512x1024_S2048x1024_S512x2048_1_1_0_0_n_n.rhsIdx i q 1).val = (q ⟨0, by decide⟩).val :=
  dot_S512x1024_S2048x1024_S512x2048_1_1_0_0_n_n.rhsIdx_val_of_single rfl i q

/-! ## The two products as plain sums -/

/-- The first product at (r, n): the sum over k of L(r, k) · R(n, k). -/
theorem rows_against_B (L : FVec Ideal S512x2048 .bf16) (R : FVec Ideal S1024x2048 .bf16) (r : Fin 512) (n : Fin 1024) :
    FloatOps.matmul dot_S512x2048_S1024x2048_S512x1024_1_1_0_0_n_n none L R (constant (F := Ideal) S512x1024 .f32 0x00000000#32) (ix2 r n)
      = ∑ k : Fin 2048, L (ix2 r k) * R (ix2 n k) := by
  rw [Ideal.matmul_constant_zero_apply, ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 r n) ((contrEquiv1 dot_S512x2048_S1024x2048_S512x1024_1_1_0_0_n_n 2048 rfl rfl).symm k) = ix2 r k := funext fun a => Fin.ext (by
    match a with
    | ⟨0, _⟩ => exact pB_lhs_row _ _
    | ⟨1, _⟩ => exact (pB_lhs_contr _ _).trans hk)
  have er : dot_S512x2048_S1024x2048_S512x1024_1_1_0_0_n_n.rhsIdx (ix2 r n) ((contrEquiv1 dot_S512x2048_S1024x2048_S512x1024_1_1_0_0_n_n 2048 rfl rfl).symm k) = ix2 n k := funext fun a => Fin.ext (by
    match a with
    | ⟨0, _⟩ => exact pB_rhs_row _ _
    | ⟨1, _⟩ => exact (pB_rhs_contr _ _).trans hk)
  rw [el, er]

/-- The second product at (r, d): the sum over n of L(r, n) · R(d, n). -/
theorem rows_against_C (L : FVec Ideal S512x1024 .bf16) (R : FVec Ideal S2048x1024 .bf16) (r : Fin 512) (n : Fin 2048) :
    FloatOps.matmul dot_S512x1024_S2048x1024_S512x2048_1_1_0_0_n_n none L R (constant (F := Ideal) S512x2048 .f32 0x00000000#32) (ix2 r n)
      = ∑ k : Fin 1024, L (ix2 r k) * R (ix2 n k) := by
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 r n) ((contrEquiv1 dot_S512x1024_S2048x1024_S512x2048_1_1_0_0_n_n 1024 rfl rfl).symm k) = ix2 r k := funext fun a => Fin.ext (by
    match a with
    | ⟨0, _⟩ => exact pC_lhs_row _ _
    | ⟨1, _⟩ => exact (pC_lhs_contr _ _).trans hk)
  have er : dot_S512x1024_S2048x1024_S512x2048_1_1_0_0_n_n.rhsIdx (ix2 r n) ((contrEquiv1 dot_S512x1024_S2048x1024_S512x2048_1_1_0_0_n_n 1024 rfl rfl).symm k) = ix2 n k := funext fun a => Fin.ext (by
    match a with
    | ⟨0, _⟩ => exact pC_rhs_row _ _
    | ⟨1, _⟩ => exact (pC_rhs_contr _ _).trans hk)
  rw [el, er]

/-! ## The stored value -/

/-- The value the body stores at (u, r, d), from the four blocks it loaded. -/
theorem stored_apply (x0 : FVec Ideal S1x512x2048 .f32) (b : FVec Ideal S1024x2048 .bf16) (c : FVec Ideal S2048x1024 .bf16)
    (dr : FVec Ideal S1x2048 .f32) (u : Fin 1) (r : Fin 512) (d : Fin 2048) :
    k0_pay1 (F := Ideal) x0 b c dr (ix3 u r d)
      = (∑ n : Fin 1024, Ideal.tanh (∑ k : Fin 2048, x0 (ix3 (0 : Fin 1) r k) * b (ix2 n k)) * c (ix2 d n))
          + dr (ix2 (0 : Fin 1) d) * x0 (ix3 (0 : Fin 1) r d) := by
  unfold k0_pay1
  refine (shapeCast_ab_1ab_apply _ _ u r d).trans ?_
  refine congrArg₂ (· + ·) ?_ (congrArg₂ (· * ·) ?_ ?_)
  · refine (rows_against_C _ _ r d).trans (Finset.sum_congr rfl fun n _ => ?_)
    refine congrArg₂ (· * ·) ?_ (congrFun (shapeCast_self c _) (ix2 d n))
    change Ideal.tanh _ = _
    refine congrArg Ideal.tanh ?_
    refine (rows_against_B _ _ r n).trans (Finset.sum_congr rfl fun k _ => ?_)
    exact congrArg₂ (· * ·) (shapeCast_1ab_ab_apply x0 _ r k) (congrFun (shapeCast_self b _) (ix2 n k))
  · exact (broadcastTo_1b_ab_apply _ _ r d).trans (congrFun (shapeCast_self dr _) _)
  · exact shapeCast_1ab_ab_apply x0 _ r d

end Cert.KernelIdeal.Body

end
-- ==== Proof.Blocks.lean ====
/-
  From one block to the whole array, and the kernel's run.

  The grid has 4 × 8 points; point (i, j) works on rows 512·j … 512·j + 511 of batch i: it is handed that block of x, the
  whole of B, C and the one-row D (the same at every point), and writes back the same block of the result.  B and C reach
  the kernel through a change of float format made beforehand, which is the identity at the ideal values, and D through a
  recast of [2048] as [1, 2048].  So what a point writes back is the specified result restricted to its block, and the
  32 blocks cover the result array: every (b, s, d) lies in the block of point (b, s / 512).
-/
import proofs.«160884_j50929722196038_2_alg».proof.Proof.Gen.KernelIdeal.Value
import proofs.«160884_j50929722196038_2_alg».proof.Proof.Body
import proofs.«160884_j50929722196038_2_alg».proof.Proof.Spec
import Idealize.ShloMosaic.Lib.StableHlo.Run

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## What the region finds in the arrays the host wrote -/

/-- The array staged for B is B itself: the change of format is the identity at the ideal values. -/
theorem entry_B (c : Dev nD) :
    (V m c main_v0 : S1024x2048.Idx → EReal) = (m ((c : Thread nD τ).loc main_arg1) : S1024x2048.Idx → EReal) := by
  dsimp only [V, hostOps0]; after_results; rfl

/-- Likewise for C. -/
theorem entry_C (c : Dev nD) :
    (V m c main_v1 : S2048x1024.Idx → EReal) = (m ((c : Thread nD τ).loc main_arg2) : S2048x1024.Idx → EReal) := by
  dsimp only [V, hostOps0]; after_results; rfl

/-- The array staged for D is D with a leading unit axis. -/
theorem entry_D (c : Dev nD) (d : Fin 2048) :
    (V m c main_v2 : S1x2048.Idx → EReal) (ix2 (0 : Fin 1) d) = (m ((c : Thread nD τ).loc main_arg3) : S2048.Idx → EReal) (ix1 d) := by
  have e : (V m c main_v2 : S1x2048.Idx → EReal) = shapeCast S1x2048 (m ((c : Thread nD τ).loc main_arg3) : S2048.Idx → EReal) shapeCasts_S2048_S1x2048 := by
    dsimp only [V, hostOps0]; after_results; rfl
  rw [e]
  exact shapeCast_a_1a_apply _ _ 0 d

/-! ## The index maps, decided once over the 32 grid points -/

/-- The block of x moves with the block of the result; B, C and D stay at block (0, 0); the result's blocks run over
    4 batches and 8 groups of rows and do not move along the model axis. -/
theorem index_relations : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 7 :=
  (by decide +kernel : ∀ t : Fin grid0.N, _)

/-- Every (batch, group of rows) is some point's block. -/
theorem every_block_visited : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-! ## One block -/

/-- If the four loaded blocks hold the entries of the argument arrays that row (b, s) of the result depends on, the value
    stored at (·, r, d) is the specified result at (b, s, d). -/
theorem stored_is_result (x0 : FVec Ideal S1x512x2048 .f32) (bw : FVec Ideal S1024x2048 .bf16) (cw : FVec Ideal S2048x1024 .bf16)
    (dr : FVec Ideal S1x2048 .f32)
    (X : FVec Ideal S4x4096x2048 .f32) (B : FVec Ideal S1024x2048 .f32) (C : FVec Ideal S2048x1024 .f32) (D : FVec Ideal S2048 .f32)
    (y : S1x512x2048.Idx) (i : S4x4096x2048.Idx)
    (hx : ∀ k : Fin 2048, x0 (ix3 (0 : Fin 1) (y 1) k) = X (ix3 (i 0) (i 1) k))
    (hb : ∀ j : S1024x2048.Idx, bw j = B j) (hc : ∀ j : S2048x1024.Idx, cw j = C j)
    (hd : ∀ d : Fin 2048, dr (ix2 (0 : Fin 1) d) = D (ix1 d))
    (h2 : (i 2).val = (y 2).val) :
    k0_pay1 (F := Ideal) x0 bw cw dr y = Cert.Spec.result X B C D i := by
  obtain ⟨u, r, d, rfl⟩ : ∃ (u : Fin 1) (r : Fin 512) (d : Fin 2048), y = ix3 u r d := ⟨y 0, y 1, y 2, eq_ix3 y⟩
  have hi2 : i 2 = d := Fin.ext h2
  rw [Cert.KernelIdeal.Body.stored_apply]
  unfold Cert.Spec.result Cert.Spec.resultAt Cert.Spec.state
  rw [hi2, hd d, ← hx d]
  refine congrArg₂ (· + ·) (Finset.sum_congr rfl fun n _ => ?_) rfl
  rw [hc]
  refine congrArg (· * C (ix2 d n)) (congrArg Ideal.tanh (Finset.sum_congr rfl fun k _ => ?_))
  rw [hb, ← hx k]

/-- What point t writes back is its block of the specified result of the argument arrays. -/
theorem flushed_eq (c : Dev nD) (t : Fin cfg0.N) :
    (dats m 0 c).flushed 4 t = ((cfg0.win 4).blk t).view.read (Elt Ideal)
      (Cert.Spec.result (m ((c : Thread nD τ).loc main_arg0)) (m ((c : Thread nD τ).loc main_arg1))
        (m ((c : Thread nD τ).loc main_arg2)) (m ((c : Thread nD τ).loc main_arg3))) := by
  rw [flushed4]
  unfold out0_4
  rw [View.canon_unit_zero zero3]
  simp only [View.ld_unit_zero (S := S1x512x2048) zero3, View.ld_unit_zero (S := S1024x2048) zero2,
    View.ld_unit_zero (S := S2048x1024) zero2, View.ld_unit_zero (S := S1x2048) zero2]
  obtain ⟨e00, e01, e02, e42, e10, e11, e20, e21, e30, e31, b0, b1⟩ := index_relations t
  funext y
  have y0 : (y 0).val < 1 := (y 0).isLt
  have y1 : (y 1).val < 512 := (y 1).isLt
  have y2 : (y 2).val < 2048 := (y 2).isLt
  refine stored_is_result (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3))
    y (((cfg0.win 4).blk t).view.emb y) (fun k => ?_) (fun j => ?_) (fun j => ?_) (fun d => ?_) ?_
  · show V m c main_arg0 (((cfg0.win 0).blk t).view.emb (ix3 (0 : Fin 1) (y 1) k)) = _
    rw [V_main_arg0]
    refine congrArg _ (funext fun a => Fin.ext ?_)
    match a with
    | ⟨0, _⟩ => show win0_0.index t (0 : Fin 3) * 1 + 1 * 0 = win0_4.index t (0 : Fin 3) * 1 + 1 * (y 0).val; omega
    | ⟨1, _⟩ => show win0_0.index t (1 : Fin 3) * 512 + 1 * (y 1).val = win0_4.index t (1 : Fin 3) * 512 + 1 * (y 1).val; omega
    | ⟨2, _⟩ => show win0_0.index t (2 : Fin 3) * 2048 + 1 * k.val = k.val; omega
  · show V m c main_v0 (((cfg0.win 1).blk t).view.emb j) = _
    rw [entry_B]
    refine congrArg _ (funext fun a => Fin.ext ?_)
    match a with
    | ⟨0, _⟩ => show win0_1.index t (0 : Fin 2) * 1024 + 1 * (j 0).val = (j 0).val; omega
    | ⟨1, _⟩ => show win0_1.index t (1 : Fin 2) * 2048 + 1 * (j 1).val = (j 1).val; omega
  · show V m c main_v1 (((cfg0.win 2).blk t).view.emb j) = _
    rw [entry_C]
    refine congrArg _ (funext fun a => Fin.ext ?_)
    match a with
    | ⟨0, _⟩ => show win0_2.index t (0 : Fin 2) * 2048 + 1 * (j 0).val = (j 0).val; omega
    | ⟨1, _⟩ => show win0_2.index t (1 : Fin 2) * 1024 + 1 * (j 1).val = (j 1).val; omega
  · show V m c main_v2 (((cfg0.win 3).blk t).view.emb (ix2 (0 : Fin 1) d)) = _
    refine Eq.trans (congrArg _ (funext fun a => Fin.ext ?_)) (entry_D m c d)
    match a with
    | ⟨0, _⟩ => show win0_3.index t (0 : Fin 2) * 1 + 1 * 0 = 0; omega
    | ⟨1, _⟩ => show win0_3.index t (1 : Fin 2) * 2048 + 1 * d.val = d.val; omega
  · show win0_4.index t (2 : Fin 3) * 2048 + 1 * (y 2).val = (y 2).val
    omega

/-! ## The blocks cover the array -/

/-- An index of the result array is in point t's block iff each coordinate is in the block's range on its axis. -/
theorem mem_block (t : Fin cfg0.N) (i : S4x4096x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v3).slice (win0_4.rect t)).set ↔ _
  rw [View.set_slice_whole, Rect.mem_set_unit]
  exact Iff.rfl

/-- Entry (b, s, d) lies in the block of the point whose block index is (b, s / 512, 0). -/
theorem covered (i : S4x4096x2048.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 2048 := (i 2).isLt
  obtain ⟨t, ht⟩ := every_block_visited ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- So the result array after the run is the specified result of the argument arrays. -/
theorem final (c : Dev nD) : (dats m 0 c).arrAt 4 cfg0.N
    = Cert.Spec.result (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) covered

/-! ## The run -/

/-- Every weakly fair execution of the kernel's program ends with the result array at the specified result of the
    arguments, and the arguments unchanged. -/
theorem run : θ_run defs (onTc (τ := τ) (main (F := Ideal))) ⟨m, fun _ => 0, ρ⟩ fun r => ∀ c : Dev nD,
      r.2.mem ((c : Thread nD τ).loc main_v3)
        = Cert.Spec.result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.lean ====
/-
  The kernel and its reference compute, at the ideal values, one function of (x, B, C, D):
      result(b, s, d) = (Σ_n tanh (Σ_k x(b, s, k) · B(n, k)) · C(d, n)) + D(d) · x(b, s, d).
  The kernel does it block by block — 512 rows of one batch at a time, against the whole of B and C — and the reference
  with two whole contractions; the sums are over the same index sets in both, written the same way, so no law of the
  extended reals beyond reading each operation at an index is needed, and the finiteness of the inputs is never used.
  Spec.lean states the function, Reference.lean reads the reference's stages as it, Body.lean reads one block of the
  kernel's work, Blocks.lean carries the blocks to the whole array and the kernel's run; here the five claims are assembled.
-/
import proofs.«160884_j50929722196038_2_alg».proof.Defs
import proofs.«160884_j50929722196038_2_alg».proof.Proof.Gen.Kernel
import proofs.«160884_j50929722196038_2_alg».proof.Proof.Gen.Kernel.Skeleton
import proofs.«160884_j50929722196038_2_alg».proof.Proof.Gen.Kernel.Launch
import proofs.«160884_j50929722196038_2_alg».proof.Proof.Gen.Kernel.Points
import proofs.«160884_j50929722196038_2_alg».proof.Proof.Gen.Kernel.Frame
import proofs.«160884_j50929722196038_2_alg».proof.Proof.Gen.KernelIdeal
import proofs.«160884_j50929722196038_2_alg».proof.Proof.Gen.KernelIdeal.Skeleton
import proofs.«160884_j50929722196038_2_alg».proof.Proof.Gen.KernelIdeal.Launch
import proofs.«160884_j50929722196038_2_alg».proof.Proof.Gen.KernelIdeal.Points
import proofs.«160884_j50929722196038_2_alg».proof.Proof.Gen.KernelIdeal.Frame
import proofs.«160884_j50929722196038_2_alg».proof.Proof.Gen.ReferenceIdeal
import proofs.«160884_j50929722196038_2_alg».proof.Proof.Gen.KernelIdeal.Value
import proofs.«160884_j50929722196038_2_alg».proof.Proof.Gen.ReferenceIdeal.Run
import proofs.«160884_j50929722196038_2_alg».proof.Proof.Gen.ReferenceIdeal.Read
import proofs.«160884_j50929722196038_2_alg».proof.Proof.Gen.Pre_finite_inputs
import proofs.«160884_j50929722196038_2_alg».proof.Proof.Spec
import proofs.«160884_j50929722196038_2_alg».proof.Proof.Reference
import proofs.«160884_j50929722196038_2_alg».proof.Proof.Body
import proofs.«160884_j50929722196038_2_alg».proof.Proof.Blocks
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's text was rewritten to read it at the ideal values. -/
theorem preserves : Cert.preserves_Kernel_KernelIdeal := trivial

/-- From memories that agree on the four arguments, both programs end with the result array at the specified result of
    those arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_is_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
